-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S64x512 : Shape := ⟨2, ![64, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S64x512 : S_.BroadcastsInDim S64x512 (![] : Fin 0 → Fin S64x512.rank)
  reducesTo_S64x512_S_d0_1 : S64x512.ReducesTo [0, 1] S_

variable [Facts]

def fn {F : FTy → Type} [FloatOps F] (main_arg0 : FVec F S4096x512 .f32) (main_arg1 : FVec F S64x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  main_v8
-- ==== Kernel.lean ====
abbrev S4096x512 : Shape := ⟨2, ![4096, 512]⟩
abbrev S64x512 : Shape := ⟨2, ![64, 512]⟩
abbrev S4096x64x512 : Shape := ⟨3, ![4096, 64, 512]⟩
abbrev S64x64x512 : Shape := ⟨3, ![64, 64, 512]⟩
abbrev S64 : Shape := ⟨1, ![64]⟩
abbrev S64x1 : Shape := ⟨2, ![64, 1]⟩
abbrev S512 : Shape := ⟨1, ![512]⟩
abbrev S1x512 : Shape := ⟨2, ![1, 512]⟩
abbrev S1x64x512 : Shape := ⟨3, ![1, 64, 512]⟩

abbrev nBuf : Space → Nat
  | .hbm => 3
  | .vmem => 3
  | .smem => 0
  | _ => 0

abbrev bufTy : (tb : Table) → Fin (tcTables nBuf tb) → BufTy
  | .hbm, ⟨0, _⟩ => ⟨S4096x512, .f32⟩
  | .hbm, ⟨1, _⟩ => ⟨S64x512, .f32⟩
  | .hbm, ⟨2, _⟩ => ⟨S4096x64x512, .f32⟩
  | .local _ .vmem, ⟨0, _⟩ => ⟨S64x512, .f32⟩
  | .local _ .vmem, ⟨1, _⟩ => ⟨S64x64x512, .f32⟩
  | .local _ .vmem, ⟨2, _⟩ => ⟨S64x64x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S64x512_S64x512_0_0 : ∀ a, (![0, 0] : Fin 2 → Nat) a + S64x512.size a ≤ S64x512.size a
  h_S64x512 : 0 < S64x512.numel
  reduces_S64x512_S64 : S64x512.Reduces [1] S64
  shapeCasts_S64_S64x1 : S64.ShapeCasts S64x1
  reduces_S64x512_S512 : S64x512.Reduces [0] S512
  shapeCasts_S512_S1x512 : S512.ShapeCasts S1x512
  broadcasts_S64x1_S64x512 : S64x1.Broadcasts S64x512
  broadcasts_S1x512_S64x512 : S1x512.Broadcasts S64x512
  shapeCasts_S64x512_S1x64x512 : S64x512.ShapeCasts S1x64x512
  shapeCasts_S1x64x512_S1x64x512 : S1x64x512.ShapeCasts S1x64x512
  broadcasts_S1x64x512_S64x64x512 : S1x64x512.Broadcasts S64x64x512
  inb_S64x64x512_S64x64x512_0_0_0 : ∀ a, (![0, 0, 0] : Fin 3 → Nat) a + S64x64x512.size a ≤ S64x64x512.size a
  h_S64x64x512 : 0 < S64x64x512.numel
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x512.size a ≤ S64x512.size a
  hwx0_0 : ∀ i : grid0.Coords, EltTy.bits .f32 = 32 ∨ (Rect.block (s := S64x512) S64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x64x512.size a ≤ S4096x64x512.size a
  hwx0_1 : ∀ i : grid0.Coords, EltTy.bits .f32 = 32 ∨ (Rect.block (s := S4096x64x512) S64x64x512.size (cc0_transform_1 i) (hinb0_1 i)).WholeWords (EltTy.packing .f32)

variable [Facts₀]

abbrev win0_0 : Pipeline.Window sig grid0 :=
  Pipeline.Window.ofSpec (Memref.whole main_arg1) S64x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x64x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x512 : Shape := ⟨2, ![4096, 512]⟩
abbrev S64x512 : Shape := ⟨2, ![64, 512]⟩
abbrev S_ : Shape := ⟨0, ![]⟩
abbrev S512 : Shape := ⟨1, ![512]⟩
abbrev S64 : Shape := ⟨1, ![64]⟩
abbrev S64x1 : Shape := ⟨2, ![64, 1]⟩
abbrev S1x512 : Shape := ⟨2, ![1, 512]⟩
abbrev S1x64x512 : Shape := ⟨3, ![1, 64, 512]⟩
abbrev S4096x64x512 : Shape := ⟨3, ![4096, 64, 512]⟩

abbrev nBuf : Space → Nat
  | .hbm => 27
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S64x512, .f32⟩
  | .hbm, ⟨2, _⟩ => ⟨S_, .f32⟩
  | .hbm, ⟨3, _⟩ => ⟨S512, .f32⟩
  | .hbm, ⟨4, _⟩ => ⟨S_, .f32⟩
  | .hbm, ⟨5, _⟩ => ⟨S64, .f32⟩
  | .hbm, ⟨6, _⟩ => ⟨S_, .f32⟩
  | .hbm, ⟨7, _⟩ => ⟨S512, .f32⟩
  | .hbm, ⟨8, _⟩ => ⟨S64x1, .f32⟩
  | .hbm, ⟨9, _⟩ => ⟨S1x512, .f32⟩
  | .hbm, ⟨10, _⟩ => ⟨S64x512, .f32⟩
  | .hbm, ⟨11, _⟩ => ⟨S64x512, .f32⟩
  | .hbm, ⟨12, _⟩ => ⟨S64x512, .f32⟩
  | .hbm, ⟨13, _⟩ => ⟨S64x512, .f32⟩
  | .hbm, ⟨14, _⟩ => ⟨S_, .f32⟩
  | .hbm, ⟨15, _⟩ => ⟨S64, .f32⟩
  | .hbm, ⟨16, _⟩ => ⟨S64x1, .f32⟩
  | .hbm, ⟨17, _⟩ => ⟨S1x512, .f32⟩
  | .hbm, ⟨18, _⟩ => ⟨S64x512, .f32⟩
  | .hbm, ⟨19, _⟩ => ⟨S64x512, .f32⟩
  | .hbm, ⟨20, _⟩ => ⟨S64x512, .f32⟩
  | .hbm, ⟨21, _⟩ => ⟨S64x512, .f32⟩
  | .hbm, ⟨22, _⟩ => ⟨S64x1, .f32⟩
  | .hbm, ⟨23, _⟩ => ⟨S64x512, .f32⟩
  | .hbm, ⟨24, _⟩ => ⟨S64x512, .f32⟩
  | .hbm, ⟨25, _⟩ => ⟨S1x64x512, .f32⟩
  | .hbm, ⟨26, _⟩ => ⟨S4096x64x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]

class Facts₀ : Prop where
  bcast_S_S512 : S_.BroadcastsInDim S512 (![] : Fin 0 → Fin S512.rank)
  reducesTo_S64x512_S64_d1 : S64x512.ReducesTo [1] S64
  h_S_ : 0 < S_.numel
  reducesTo_S64x512_S512_d0 : S64x512.ReducesTo [0] S512
  bcast_S64_S64x1_0 : S64.BroadcastsInDim S64x1 (![0] : Fin 1 → Fin S64x1.rank)
  bcast_S512_S1x512_1 : S512.BroadcastsInDim S1x512 (![1] : Fin 1 → Fin S1x512.rank)
  bcast_S64x1_S64x512_0_1 : S64x1.BroadcastsInDim S64x512 (![0, 1] : Fin 2 → Fin S64x512.rank)
  bcast_S1x512_S64x512_0_1 : S1x512.BroadcastsInDim S64x512 (![0, 1] : Fin 2 → Fin S64x512.rank)
  bcast_S64x512_S1x64x512_1_2 : S64x512.BroadcastsInDim S1x64x512 (![1, 2] : Fin 2 → Fin S1x64x512.rank)
  bcast_S1x64x512_S4096x64x512_0_1_2 : S1x64x512.BroadcastsInDim S4096x64x512 (![0, 1, 2] : Fin 3 → Fin S4096x64x512.rank)

variable [Facts₀]

class Facts : Prop extends Facts₀ where

variable [Facts]
-- ==== Proof.RemapSpec.lean ====
/-
  The specification of the remap table, over the extended reals.

  For a weight matrix `w` of 64 rows and 512 columns write `rowSum w i = ∑ k, w (i, k)` and
  `colSum w j = ∑ k, w (k, j)`. The table entry at row `i`, column `j` is
  `exp (rowSum w i * colSum w j) * 2⁻⁹`, and the result array repeats the 64 × 512 table along its
  leading axis of length 4096: entry `(t, i, j)` does not depend on `t`.

  The second half is the one law that joins the two programs. One of them multiplies the exponential
  by the constant `2⁻⁹ = 1/512`; the other divides it by `∑ d < 512, exp (r * 0)`. On the extended
  reals `r * 0 = 0` for every `r` (also for `r = ±∞`), `exp 0 = 1`, the sum of 512 ones is 512, and a
  quotient by the real 512 is the product with the real 1/512 for every extended real numerator: so
  the law holds with no finiteness assumption on `r` or on the numerator.
-/
import Idealize.ShloMosaic.PureOps.Ideal
import Idealize.ShloMosaic.PureOps.Ideal.Laws
import Idealize.ShloMosaic.Lib.ValueIdx

noncomputable section

namespace Cert.Remap

open Idealize.ShloMosaic Idealize.ShloMosaic.ValueIdx

/-- The sum of row `i` of the matrix. -/
def rowSum (w : (⟨2, ![64, 512]⟩ : Shape).Idx → EReal) (i : Fin 64) : EReal :=
  ∑ k : Fin 512, w (ix2 i k)

/-- The sum of column `j` of the matrix. -/
def colSum (w : (⟨2, ![64, 512]⟩ : Shape).Idx → EReal) (j : Fin 512) : EReal :=
  ∑ k : Fin 64, w (ix2 k j)

/-- The table entry at row `i`, column `j`: `exp (rowSum i * colSum j)` scaled by the constant whose
    binary pattern denotes `2⁻⁹`. -/
def entry (w : (⟨2, ![64, 512]⟩ : Shape).Idx → EReal) (i : Fin 64) (j : Fin 512) : EReal :=
  Ideal.exp (rowSum w i * colSum w j) * Ideal.ofBits .f32 0x3B000000#32

/-- The result array: the table repeated along the leading axis. -/
def remap (w : (⟨2, ![64, 512]⟩ : Shape).Idx → EReal) : (⟨3, ![4096, 64, 512]⟩ : Shape).Idx → EReal :=
  fun y => entry w (y 1) (y 2)

/-- The pattern `0x3B000000` (sign 0, exponent 118, mantissa 0) denotes `2⁻⁹ = 1/512`. -/
theorem scale_eq : Ideal.ofBits .f32 0x3B000000#32 = ((1 / 512 : ℝ) : EReal) := by
  simp [Ideal.ofBits, Ideal.ieee, -EReal.coe_mul]; norm_num

/-- `exp 0 = 1` on the extended reals. -/
theorem exp_zero : Ideal.exp 0 = 1 := by
  rw [← EReal.coe_zero, Ideal.exp_coe, Real.exp_zero, EReal.coe_one]

/-- The denominator: `∑ d < 512, exp (r * 0)` is the real 512, whatever the extended real `r`. -/
theorem denominator_eq (r : EReal) :
    ∑ _d : Fin 512, Ideal.exp (r * 0) = ((512 : ℝ) : EReal) := by
  rw [mul_zero, exp_zero, Finset.sum_const, Finset.card_univ, Fintype.card_fin, nsmul_one]
  norm_cast

/-- THE LAW: dividing by `∑ d < 512, exp (r * 0)` is multiplying by the constant `2⁻⁹`. -/
theorem quotient_eq_scale (x r : EReal) :
    Ideal.div x (∑ _d : Fin 512, Ideal.exp (r * 0)) = x * Ideal.ofBits .f32 0x3B000000#32 := by
  rw [denominator_eq, scale_eq, Ideal.div_coe (by norm_num : (512 : ℝ) ≠ 0)]

end Cert.Remap

end
-- ==== Proof.ReferenceRemap.lean ====
/-
  The reference program computes the remap table of `RemapSpec`.

  Read one operation at a time, the reference's result at an index `(t, i, j)` is the quotient of
  `exp (rs * cs)` by `∑ d < 512, exp (rs * 0)`, where `rs` is the sum of row `i` of the weight matrix and
  `cs` the sum of its column `j`: the two broadcasts that build the result drop `t` and keep `(i, j)`;
  the keep-dimension broadcasts in front of each product read the row sum at `i` and the column sum at
  `j`; the reductions start from the constant `0`, which adds nothing; and the second factor under the
  denominator's exponential is a broadcast of that same constant `0`. The law of `RemapSpec` then turns
  the quotient into the product with `2⁻⁹`.
-/
import proofs.«169331_j40200893891072_1_alg».proof.Proof.Gen.ReferenceIdeal.Read
import proofs.«169331_j40200893891072_1_alg».proof.Proof.RemapSpec

noncomputable section

namespace Cert.Remap.Reference

open Idealize.ShloMosaic Idealize.ShloMosaic.ValueIdx
open Cert.ReferenceIdeal Cert.ReferenceIdeal.Read

/-- The reference's last stage, as a function of the weight matrix, is the remap table. -/
theorem result_eq (x1 : (⟨S64x512, .f32⟩ : BufTy).Contents (Elt Ideal)) :
    val_main_v20 (F := Ideal) x1 = Cert.Remap.remap x1 := by
  funext i
  -- the numerator's row sum is read along row `i 1`
  have hrow : ∀ k : Fin 512,
      idx_main_v1 (idx_main_v10 (idx_main_v12 (idx_main_v19 (idx_main_v20 i)))) k = ix2 (i 1) k :=
    fun k => funext fun a => Fin.ext (by match a with | ⟨0, _⟩ => rfl | ⟨1, _⟩ => rfl)
  -- the numerator's column sum is read along column `i 2`
  have hcol : ∀ k : Fin 64,
      idx_main_v2 (idx_main_v11 (idx_main_v13 (idx_main_v19 (idx_main_v20 i)))) k = ix2 k (i 2) :=
    fun k => funext fun a => Fin.ext (by match a with | ⟨0, _⟩ => rfl | ⟨1, _⟩ => rfl)
  -- every term of the denominator reads the same row sum, along row `i 1`
  have hden : ∀ (d k : Fin 512),
      idx_main_v1 (idx_main_v3 (idx_main_v5 (idx_main_v9 (idx_main_v16 (idx_main_v17 (idx_main_v19 (idx_main_v20 i)))) d))) k
        = ix2 (i 1) k :=
    fun d k => funext fun a => Fin.ext (by match a with | ⟨0, _⟩ => rfl | ⟨1, _⟩ => rfl)
  simp only [val_main_v20_apply, val_main_v19_apply, val_main_v18_apply, val_main_v17_apply, val_main_v16_apply,
    val_main_v15_apply, val_main_v14_apply, val_main_v13_apply, val_main_v12_apply, val_main_v11_apply,
    val_main_v10_apply, val_main_v9_apply, val_main_v8_apply, val_main_v7_apply, val_main_v6_apply,
    val_main_v5_apply, val_main_v4_apply, val_main_v3_apply, val_main_v2_apply, val_main_v1_apply,
    val_main_v0_apply, val_main_cst_apply, val_main_cst_0_apply, val_main_cst_1_apply, val_main_cst_2_apply,
    hrow, hcol, hden, Ideal.hostDivf_def, Ideal.hostUnary_exp_def, Ideal.mulf_def, Ideal.ofBits_def,
    Ideal.ofBits_zero_f32, zero_add]
  exact Cert.Remap.quotient_eq_scale _ _

end Cert.Remap.Reference

end
-- ==== Proof.KernelRemap.lean ====
/-
  The kernel computes the remap table of `RemapSpec`.

  The pipeline has 64 grid points. At every point the input window holds the whole 64 × 512 weight
  matrix (its block index is `(0, 0)` at every point), and the output window's block at point `t` is
  the slab of 64 leading indices `64 t ≤ a < 64 (t + 1)` of the 4096 × 64 × 512 result, whole along the
  other two axes. The body stores, at block index `(a, i, j)`, the exponential of the product of two
  lane sums of the loaded matrix — along axis 1 read at row `i`, along axis 0 read at column `j` —
  scaled by `2⁻⁹`: that is the table entry `(i, j)`, whatever `a` and `t`. So each point writes back the
  block of the table repeated along the leading axis, and the 64 slabs cover the result: the slab
  that holds leading index `a` is the one of point `a / 64`.
-/
import proofs.«169331_j40200893891072_1_alg».proof.Proof.Gen.KernelIdeal.Value
import proofs.«169331_j40200893891072_1_alg».proof.Proof.RemapSpec

noncomputable section

namespace Cert.Remap.Kernel

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)

/-! ## The body's two lane sums, and the block it stores -/

/-- The lane sum along axis 1, read at row `i`, is the sum of row `i`. -/
theorem rowSum_read (P0 : FVec Ideal S64x512 .f32) (i : Fin 64) :
    (multiReduction (F := Ideal) .add [1] S64 P0 0x00000000#32 reduces_S64x512_S64 (.inl rfl) rfl) (ix1 i)
      = Cert.Remap.rowSum P0 i :=
  (Ideal.multiReduction_add_single P0 0x00000000#32 reduces_S64x512_S64 (.inl rfl) rfl (ix1 i)).trans
    (Finset.sum_congr rfl fun k _ => congrArg P0
      (funext fun a => Fin.ext (by match a with | ⟨0, _⟩ => rfl | ⟨1, _⟩ => rfl)))

/-- The lane sum along axis 0, read at column `j`, is the sum of column `j`. -/
theorem colSum_read (P0 : FVec Ideal S64x512 .f32) (j : Fin 512) :
    (multiReduction (F := Ideal) .add [0] S512 P0 0x00000000#32 reduces_S64x512_S512 (.inl rfl) rfl) (ix1 j)
      = Cert.Remap.colSum P0 j :=
  (Ideal.multiReduction_add_single P0 0x00000000#32 reduces_S64x512_S512 (.inl rfl) rfl (ix1 j)).trans
    (Finset.sum_congr rfl fun k _ => congrArg P0
      (funext fun a => Fin.ext (by match a with | ⟨0, _⟩ => rfl | ⟨1, _⟩ => rfl)))

/-- The block the body leaves, at block index `y`, is the table entry at row `y 1`, column `y 2` of the
    loaded matrix. -/
theorem block_entry (P0 : Vec Ideal S64x512 .f32) (y : S64x64x512.Idx) :
    E1 (F := Ideal) P0 y = Cert.Remap.entry P0 (y 1) (y 2) := by
  have e0 : ix1_0 y = ix1 (y 1) := funext fun a => Fin.ext (by match a with | ⟨0, _⟩ => rfl)
  have e1 : ix1_1 y = ix1 (y 2) := funext fun a => Fin.ext (by match a with | ⟨0, _⟩ => rfl)
  show Ideal.exp ((multiReduction (F := Ideal) .add [1] S64 P0 0x00000000#32 reduces_S64x512_S64 (.inl rfl) rfl) (ix1_0 y)
      * (multiReduction (F := Ideal) .add [0] S512 P0 0x00000000#32 reduces_S64x512_S512 (.inl rfl) rfl) (ix1_1 y))
      * Ideal.ofBits .f32 0x3B000000#32 = _
  rw [e0, e1]
  exact congrArg₂ (fun a b : EReal => Ideal.exp (a * b) * Ideal.ofBits .f32 0x3B000000#32)
    (rowSum_read P0 (y 1)) (colSum_read P0 (y 2))

theorem origin_zero : (![0, 0] : Fin 2 → Nat) = fun _ => 0 := funext fun a => by fin_cases a <;> rfl

/-- What the body leaves in the output buffer from a loaded matrix `x0`, at block index `j`. -/
theorem out_entry (x0 : Vec Ideal S64x512 .f32) (j : S64x64x512.Idx) :
    out0_1 x0 j = Cert.Remap.entry x0 (j 1) (j 2) := by
  unfold out0_1
  rw [View.ld_unit_zero (S := S64x512) origin_zero]
  exact (canon1_eq x0 j).trans (block_entry x0 j)

/-! ## The index maps over the grid -/

variable (m : (ℓ : Loc nD τ sig) → Buf (Elt Ideal) ℓ) (ρ : Dev nD → PrngReg)

/-- The input window sits at block `(0, 0)` at every point; the output window at block `(t, 0, 0)`. -/
theorem idx_facts : ∀ t : Fin cfg0.N, win0_0.index t (0 : Fin 2) = 0 ∧ win0_0.index t (1 : Fin 2) = 0
    ∧ win0_1.index t (1 : Fin 3) = 0 ∧ win0_1.index t (2 : Fin 3) = 0 :=
  (by decide +kernel : ∀ t : Fin grid0.N, _)

/-- Every one of the 64 slabs is some point's block. -/
theorem idx_onto : ∀ q : Fin 64, ∃ t : Fin cfg0.N, win0_1.index t = ![q.val, 0, 0] :=
  (by decide +kernel : ∀ q : Fin 64, ∃ t : Fin grid0.N, win0_1.index t = ![q.val, 0, 0])

/-- The input window's block at any point is the whole weight matrix. -/
theorem weight_block (c : Dev nD) (t : Fin cfg0.N) :
    (iblk m c 0 t : S64x512.Idx → Elt Ideal .f32) = V m c main_arg1 := by
  obtain ⟨a0, a1, -, -⟩ := idx_facts t
  funext y
  show V m c main_arg1 (((cfg0.win 0).blk t).view.emb y) = V m c main_arg1 y
  refine congrArg (V m c main_arg1) (funext fun a => Fin.ext ?_)
  match a with
  | ⟨0, _⟩ => show win0_0.index t (0 : Fin 2) * 64 + 1 * (y 0).val = (y 0).val; omega
  | ⟨1, _⟩ => show win0_0.index t (1 : Fin 2) * 512 + 1 * (y 1).val = (y 1).val; omega

/-! ## From blocks to the array -/

/-- WHAT POINT `t` WRITES BACK is block `t` of the remap table of the weight matrix. -/
theorem flushed_eq (c : Dev nD) (t : Fin cfg0.N) :
    (dats m 0 c).flushed 1 t
      = ((cfg0.win 1).blk t).view.read (Elt Ideal) (Cert.Remap.remap (V m c main_arg1)) := by
  rw [flushed1]
  obtain ⟨-, -, b1, b2⟩ := idx_facts t
  funext j
  show out0_1 (iblk m c 0 t) j = Cert.Remap.remap (V m c main_arg1) (((cfg0.win 1).blk t).view.emb j)
  refine (out_entry (iblk m c 0 t) j).trans ?_
  rw [weight_block m c t]
  show Cert.Remap.entry (V m c main_arg1) (j 1) (j 2)
    = Cert.Remap.entry (V m c main_arg1) ((((cfg0.win 1).blk t).view.emb j) 1) ((((cfg0.win 1).blk t).view.emb j) 2)
  congr 1 <;> apply Fin.ext
  · show (j 1).val = win0_1.index t (1 : Fin 3) * 64 + 1 * (j 1).val; omega
  · show (j 2).val = win0_1.index t (2 : Fin 3) * 512 + 1 * (j 2).val; omega

/-- An index of the result is in point `t`'s block iff each coordinate is in the block's range. -/
theorem mem_blk (t : Fin cfg0.N) (i : S4096x64x512.Idx) :
    i ∈ ((cfg0.win 1).blk t).view.set ↔ ∀ a : Fin 3, win0_1.index t a * S64x64x512.size a ≤ (i a).val
      ∧ (i a).val < win0_1.index t a * S64x64x512.size a + S64x64x512.size a := by
  show i ∈ ((View.whole main_v0).slice (win0_1.rect t)).set ↔ _
  rw [View.set_slice_whole, Rect.mem_set_unit]
  exact Iff.rfl

/-- THE COVER: every index of the result lies in the slab of the point `(i 0) / 64`. -/
theorem cover (i : S4096x64x512.Idx) :
    ∃ t : Fin cfg0.N, (cfg0.win 1).flush t = true ∧ i ∈ ((cfg0.win 1).blk t).view.set := by
  have h0 : (i 0).val < 4096 := (i 0).isLt
  have h1 : (i 1).val < 64 := (i 1).isLt
  have h2 : (i 2).val < 512 := (i 2).isLt
  obtain ⟨t, ht⟩ := idx_onto ⟨(i 0).val / 64, by omega⟩
  have q0 : win0_1.index t (0 : Fin 3) = (i 0).val / 64 := congrFun ht 0
  have q1 : win0_1.index t (1 : Fin 3) = 0 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 64 ≤ (i 0).val ∧ (i 0).val < win0_1.index t (0 : Fin 3) * 64 + 64; omega
  | ⟨1, _⟩ => show win0_1.index t (1 : Fin 3) * 64 ≤ (i 1).val ∧ (i 1).val < win0_1.index t (1 : Fin 3) * 64 + 64; omega
  | ⟨2, _⟩ => show win0_1.index t (2 : Fin 3) * 512 ≤ (i 2).val ∧ (i 2).val < win0_1.index t (2 : Fin 3) * 512 + 512; omega

/-- THE ARRAY after the run is the remap table of the weight matrix as launched. -/
theorem final (c : Dev nD) :
    (dats m 0 c).arrAt 1 cfg0.N = Cert.Remap.remap (m ((c : Thread nD τ).loc main_arg1)) :=
  (dats m 0 c).arrAt_eq_of_cover 1 (Cert.Remap.remap (V m c main_arg1)) (fun t _ => flushed_eq m c t) cover

/-- The kernel's run: the result array ends at the remap table, the arguments unchanged. -/
theorem run : θ_run defs (onTc (τ := τ) (main (F := Ideal))) ⟨m, fun _ => 0, ρ⟩ fun r => ∀ c : Dev nD,
      r.2.mem ((c : Thread nD τ).loc main_v0) = Cert.Remap.remap (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.Remap.Kernel

end
-- ==== Proof.lean ====
/-
  The kernel and its reference compute the same array over the extended reals.

  Both programs take a weight matrix `w` of 64 rows and 512 columns (the other argument is not read)
  and return a 4096 × 64 × 512 array whose entry `(t, i, j)` does not depend on `t`. With `rs i` the
  sum of row `i` of `w` and `cs j` the sum of its column `j`:

  * the kernel, at each of its 64 grid points, loads the whole matrix, forms `exp (rs i * cs j)`,
    multiplies by the constant `2⁻⁹` and writes the table to 64 consecutive leading indices; the 64
    slabs cover the result (`KernelRemap`);
  * the reference forms `exp (rs i * cs j) / ∑ d < 512, exp (rs i * 0)` and broadcasts it along the
    leading axis (`ReferenceRemap`).

  On the extended reals `r * 0 = 0` for every `r`, so the denominator is `∑ d < 512, exp 0 = 512`, and
  a quotient by the real 512 is the product with `1/512 = 2⁻⁹` for every numerator (`RemapSpec`): the
  two arrays are one function of `w`, index by index, and no finiteness of the inputs is used.

  The three frames are the generated ones (the reference's is its generated run with the result
  dropped); the idealization rewrote no operation, so the preservation claim is `True`.
-/
import proofs.«169331_j40200893891072_1_alg».proof.Defs
import proofs.«169331_j40200893891072_1_alg».proof.Proof.Gen.Kernel
import proofs.«169331_j40200893891072_1_alg».proof.Proof.Gen.Kernel.Skeleton
import proofs.«169331_j40200893891072_1_alg».proof.Proof.Gen.Kernel.Launch
import proofs.«169331_j40200893891072_1_alg».proof.Proof.Gen.Kernel.Points
import proofs.«169331_j40200893891072_1_alg».proof.Proof.Gen.Kernel.Frame
import proofs.«169331_j40200893891072_1_alg».proof.Proof.Gen.KernelIdeal
import proofs.«169331_j40200893891072_1_alg».proof.Proof.Gen.KernelIdeal.Skeleton
import proofs.«169331_j40200893891072_1_alg».proof.Proof.Gen.KernelIdeal.Launch
import proofs.«169331_j40200893891072_1_alg».proof.Proof.Gen.KernelIdeal.Points
import proofs.«169331_j40200893891072_1_alg».proof.Proof.Gen.KernelIdeal.Frame
import proofs.«169331_j40200893891072_1_alg».proof.Proof.Gen.ReferenceIdeal
import proofs.«169331_j40200893891072_1_alg».proof.Proof.Gen.KernelIdeal.Value
import proofs.«169331_j40200893891072_1_alg».proof.Proof.Gen.ReferenceIdeal.Run
import proofs.«169331_j40200893891072_1_alg».proof.Proof.Gen.ReferenceIdeal.Read
import proofs.«169331_j40200893891072_1_alg».proof.Proof.Gen.Pre_finite_inputs
import proofs.«169331_j40200893891072_1_alg».proof.Proof.RemapSpec
import proofs.«169331_j40200893891072_1_alg».proof.Proof.ReferenceRemap
import proofs.«169331_j40200893891072_1_alg».proof.Proof.KernelRemap
import Idealize.ShloMosaic.Adequacy
import Idealize.ShloMosaic.Init

noncomputable section

namespace Cert.Proof

open Idealize.ShloMosaic Idealize.ShloMosaic.TcCoe Idealize.SL.Sem

namespace RemapClaims

theorem frame_kernel : Cert.frame_Kernel := fun m ρ _ => Cert.Kernel.Gen.frame m ρ

theorem frame_kernelIdeal : Cert.frame_KernelIdeal := fun m ρ _ => Cert.KernelIdeal.Gen.frame m ρ

/-- The reference's run terminates with its arguments unchanged: its generated run, the result dropped. -/
theorem frame_referenceIdeal : Cert.frame_ReferenceIdeal := fun m ρ _ =>
  (θ_run Cert.ReferenceIdeal.defs _ _).mono (fun _ h c => (h c).2)
    (Cert.ReferenceIdeal.Value.run (F := Ideal) m ρ)

/-- Both runs end at the remap table of the weight matrix: the kernel's by its 64 slabs, the
    reference's by the quotient law; the weight matrices agree by hypothesis. -/
theorem algebraic : Cert.algebraic_KernelIdeal_ReferenceIdeal := by
  intro m ρ m' ρ' _ hagree
  refine ⟨_, Cert.Remap.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.Remap.Reference.result_eq, (hagree c).2]

end RemapClaims

theorem claim : Cert.Claim := ⟨Cert.Kernel.Gen.facts, Cert.KernelIdeal.Gen.facts, Cert.ReferenceIdeal.Gen.facts, Cert.Pre_finite_inputs.Gen.facts,
  RemapClaims.frame_kernel, RemapClaims.frame_kernelIdeal, RemapClaims.frame_referenceIdeal, trivial, RemapClaims.algebraic⟩

end Cert.Proof

end
